-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S128x512 : Shape := ⟨2, ![128, 512]⟩
abbrev S512x512 : Shape := ⟨2, ![512, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S128x512 .f32) (main_arg5 : FVec F S128x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  main_v28

def fn {F : FTy → Type} [FloatOps F] (main_arg0 : FVec F S8x4096x512 .f32) (main_arg1 : FVec F S128x512 .f32) (main_arg2 : FVec F S128x512 .f32) (main_arg3 : FVec F S512x512 .f32) (main_arg4 : FVec F S128x512 .f32) (main_arg5 : FVec F S128x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x4096x512 : Shape := ⟨3, ![8, 4096, 512]⟩
abbrev S128x512 : Shape := ⟨2, ![128, 512]⟩
abbrev S512x512 : Shape := ⟨2, ![512, 512]⟩
abbrev S32768x512 : Shape := ⟨2, ![32768, 512]⟩
abbrev S4096x512 : Shape := ⟨2, ![4096, 512]⟩

abbrev nBuf : Space → Nat
  | .hbm => 11
  | .vmem => 5
  | .smem => 0
  | _ => 0

abbrev bufTy : (tb : Table) → Fin (tcTables nBuf tb) → BufTy
  | .hbm, ⟨0, _⟩ => ⟨S8x4096x512, .f32⟩
  | .hbm, ⟨1, _⟩ => ⟨S128x512, .f32⟩
  | .hbm, ⟨2, _⟩ => ⟨S128x512, .f32⟩
  | .hbm, ⟨3, _⟩ => ⟨S512x512, .f32⟩
  | .hbm, ⟨4, _⟩ => ⟨S128x512, .f32⟩
  | .hbm, ⟨5, _⟩ => ⟨S128x512, .f32⟩
  | .hbm, ⟨6, _⟩ => ⟨S512x512, .f32⟩
  | .hbm, ⟨7, _⟩ => ⟨S512x512, .bf16⟩
  | .hbm, ⟨8, _⟩ => ⟨S32768x512, .f32⟩
  | .hbm, ⟨9, _⟩ => ⟨S32768x512, .f32⟩
  | .hbm, ⟨10, _⟩ => ⟨S8x4096x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S4096x512, .f32⟩
  | .local _ .vmem, ⟨4, _⟩ => ⟨S4096x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  shapeCasts_S8x4096x512_S32768x512 : S8x4096x512.ShapeCasts S32768x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32768x512_S8x4096x512 : S32768x512.ShapeCasts S8x4096x512
  dot_S128x512_S128x512_S512x512_0_0_1_1_n_n_wf : DotDims.WF S128x512 S128x512 S512x512 [0] [0] [1] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S32768x512.size a
  hwx0_2 : ∀ i : grid0.Coords, EltTy.bits .f32 = 32 ∨ (Rect.block (s := S32768x512) S4096x512.size (cc0_transform_2 i) (hinb0_2 i)).WholeWords (EltTy.packing .f32)

variable [Facts₀]

def dot_S128x512_S128x512_S512x512_0_0_1_1_n_n : DotDims S128x512 S128x512 S512x512 where
  lhsContracting := [0]
  rhsContracting := [0]
  lhsNonContracting := [1]
  rhsNonContracting := [1]
  lhsBatch := []
  rhsBatch := []
  wf := dot_S128x512_S128x512_S512x512_0_0_1_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v2) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S128x512 : Shape := ⟨2, ![128, 512]⟩
abbrev S512x512 : Shape := ⟨2, ![512, 512]⟩
abbrev S8x4096x128 : Shape := ⟨3, ![8, 4096, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S128x512, .f32⟩
  | .hbm, ⟨2, _⟩ => ⟨S128x512, .f32⟩
  | .hbm, ⟨3, _⟩ => ⟨S512x512, .f32⟩
  | .hbm, ⟨4, _⟩ => ⟨S128x512, .f32⟩
  | .hbm, ⟨5, _⟩ => ⟨S128x512, .f32⟩
  | .hbm, ⟨6, _⟩ => ⟨S8x4096x128, .f32⟩
  | .hbm, ⟨7, _⟩ => ⟨S8x4096x128, .f32⟩
  | .hbm, ⟨8, _⟩ => ⟨S8x4096x512, .f32⟩
  | .hbm, ⟨9, _⟩ => ⟨S8x4096x512, .f32⟩
  | .hbm, ⟨10, _⟩ => ⟨S8x4096x512, .f32⟩
  | .hbm, ⟨11, _⟩ => ⟨S128x512, .f32⟩
  | .hbm, ⟨12, _⟩ => ⟨S_, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S128x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  dot_S8x4096x512_S128x512_S8x4096x128_2_1_01_0_n_n_wf : DotDims.WF S8x4096x512 S128x512 S8x4096x128 [2] [1] [0, 1] [0] [] []
  dot_S8x4096x512_S512x512_S8x4096x512_2_1_01_0_n_n_wf : DotDims.WF S8x4096x512 S512x512 S8x4096x512 [2] [1] [0, 1] [0] [] []
  dot_S8x4096x128_S128x512_S8x4096x512_2_0_01_1_n_n_wf : DotDims.WF S8x4096x128 S128x512 S8x4096x512 [2] [0] [0, 1] [1] [] []
  dot_S8x4096x128_S8x4096x512_S128x512_01_01_2_2_n_n_wf : DotDims.WF S8x4096x128 S8x4096x512 S128x512 [0, 1] [0, 1] [2] [2] [] []

variable [Facts₀]

def dot_S8x4096x512_S128x512_S8x4096x128_2_1_01_0_n_n : DotDims S8x4096x512 S128x512 S8x4096x128 where
  lhsContracting := [2]
  rhsContracting := [1]
  lhsNonContracting := [0, 1]
  rhsNonContracting := [0]
  lhsBatch := []
  rhsBatch := []
  wf := dot_S8x4096x512_S128x512_S8x4096x128_2_1_01_0_n_n_wf
def dot_S8x4096x512_S512x512_S8x4096x512_2_1_01_0_n_n : DotDims S8x4096x512 S512x512 S8x4096x512 where
  lhsContracting := [2]
  rhsContracting := [1]
  lhsNonContracting := [0, 1]
  rhsNonContracting := [0]
  lhsBatch := []
  rhsBatch := []
  wf := dot_S8x4096x512_S512x512_S8x4096x512_2_1_01_0_n_n_wf
def dot_S8x4096x128_S128x512_S8x4096x512_2_0_01_1_n_n : DotDims S8x4096x128 S128x512 S8x4096x512 where
  lhsContracting := [2]
  rhsContracting := [0]
  lhsNonContracting := [0, 1]
  rhsNonContracting := [1]
  lhsBatch := []
  rhsBatch := []
  wf := dot_S8x4096x128_S128x512_S8x4096x512_2_0_01_1_n_n_wf
def dot_S8x4096x128_S8x4096x512_S128x512_01_01_2_2_n_n : DotDims S8x4096x128 S8x4096x512 S128x512 where
  lhsContracting := [0, 1]
  rhsContracting := [0, 1]
  lhsNonContracting := [2]
  rhsNonContracting := [2]
  lhsBatch := []
  rhsBatch := []
  wf := dot_S8x4096x128_S8x4096x512_S128x512_01_01_2_2_n_n_wf

class Facts : Prop extends Facts₀ where

variable [Facts]
-- ==== Proof.HostPrefix.lean ====
/-
  The two arrays the kernel's region reads, as the host lines before it leave them.

  Before the region the host forms the 512 x 512 weight  w (d, e) = sum over k of Wk (k, d) * memory (k, e)  (a
  contraction of the two 128 x 512 arguments over their row axis, followed by a change of float format, which is the
  identity at the exact values), and views the input x of shape [8, 4096, 512] as the matrix of its 32768 rows. Those
  are window 1's and window 0's arrays; the arguments themselves are not written.
-/
import proofs.«132538_j65506841198866_2_alg».proof.Proof.Gen.KernelIdeal.Frame
import Idealize.ShloMosaic.Lib.StableHlo.Run
import Idealize.ShloMosaic.PureOps.Ideal

noncomputable section

namespace Cert.KernelIdeal.HostPrefix

open Idealize.ShloMosaic Idealize.ShloMosaic.TcCoe Idealize.SL.Sem
open Cert.KernelIdeal Cert.KernelIdeal.Gen

variable (m : (ℓ : Loc nD τ sig) → Buf (Elt Ideal) ℓ)

/-- Window 1's array as the region finds it: the host's contraction of `Wk` with `memory`, format-changed. -/
theorem weight_eq (c : Dev nD) :
    (V m c main_v1 : S512x512.Idx → EReal)
      = truncf (F := Ideal) .bf16 (Host.dotGeneral (F := Ideal) (φ₁ := .f32) (φ₂ := .f32) dot_S128x512_S128x512_S512x512_0_0_1_1_n_n (some .fp32)
          (m ((c : Thread nD τ).loc main_arg2)) (m ((c : Thread nD τ).loc main_arg4))) bitsLt_bf16_f32 := by
  show StableHlo.after hostOps0 (fun b => m (c, b)) (Proc.devRef .tc main_v1) = _
  after_results

/-- Window 0's array as the region finds it: `x` viewed as the matrix of its rows. -/
theorem rows_eq (c : Dev nD) :
    (V m c main_v2 : S32768x512.Idx → EReal)
      = shapeCast S32768x512 (m ((c : Thread nD τ).loc main_arg0)) shapeCasts_S8x4096x512_S32768x512 := by
  show StableHlo.after hostOps0 (fun b => m (c, b)) (Proc.devRef .tc main_v2) = _
  after_results
  rfl

end Cert.KernelIdeal.HostPrefix

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.BodyValue.lean ====
/-
  What the kernel's body stores, entry by entry, at the exact extended reals.

  The body loads its block of the flattened input (4096 rows of 512 numbers) and the whole 512 x 512 weight, and
  stores their matrix product. The two shape casts are of a shape to itself; the change of float format on the loaded
  block is the identity at the exact values; the product accumulates into zero. So entry (p, q) of the stored block is
  the sum over e of  block (p, e) * weight (e, q).
-/
import proofs.«132538_j65506841198866_2_alg».proof.Proof.Gen.KernelIdeal.Skeleton
import proofs.«132538_j65506841198866_2_alg».proof.Proof.LibMatmulNN
import Idealize.ShloMosaic.Lib.Pipeline.Value
import Idealize.ShloMosaic.Lib.ValueIdx

noncomputable section

namespace Cert.KernelIdeal.BodyValue

open Idealize.ShloMosaic Idealize.ShloMosaic.ValueIdx Cert.KernelIdeal Cert.KernelIdeal.Gen

/-- The body's stored value is the product of the two loaded blocks into a zero accumulator. -/
theorem pay_eq_matmul (x0 : Vec Ideal S4096x512 .f32) (x1 : Vec Ideal S512x512 .bf16) :
    k0_pay1 (F := Ideal) x0 x1
      = FloatOps.matmul (φ₁ := .bf16) (φ₂ := .bf16) (Cert.LibMatmulNN.dims dot_S4096x512_S512x512_S4096x512_1_0_0_1_n_n.wf) none x0 x1
          (constant (F := Ideal) (⟨2, ![4096, 512]⟩ : Shape) .f32 0x00000000#32) := by
  unfold k0_pay1
  dsimp only
  rw [shapeCast_self, shapeCast_self]
  rfl

/-- Entry (p, q) of the stored block: row p of the input block against column q of the weight. -/
theorem pay_apply (x0 : Vec Ideal S4096x512 .f32) (x1 : Vec Ideal S512x512 .bf16) (p : Fin 4096) (q : Fin 512) :
    k0_pay1 (F := Ideal) x0 x1 (ix2 p q) = ∑ e : Fin 512, x0 (ix2 p e) * x1 (ix2 e q) := by
  rw [pay_eq_matmul]
  exact Cert.LibMatmulNN.matmul_zero_apply (φ₁ := .bf16) (φ₂ := .bf16) _ none x0 x1 p q

end Cert.KernelIdeal.BodyValue

end
-- ==== Proof.LibDotTN.lean ====
/-
  A matrix product with the left factor transposed, as the host computes it, read at an index at the exact extended
  reals: a general lemma.

  With dimension numbers that contract axis 0 of a `[K, M]` left factor with axis 0 of a `[K, N]` right factor (no
  batch axes; the result `[M, N]`), entry `(p, q)` of the host's `dot_general` is the sum over `e` of
  `lhs (e, p) * rhs (e, q)`: column `p` of the left factor against column `q` of the right one. There is no
  accumulator and, at the exact values, no summation order left in it.
-/
import Idealize.ShloMosaic.PureOps.Ideal
import Idealize.ShloMosaic.PureOps.Ideal.Laws
import Idealize.ShloMosaic.Lib.ValueIdx

noncomputable section

namespace Cert.LibDotTN

open Idealize.ShloMosaic Idealize.ShloMosaic.ValueIdx

variable {M N K : ℕ}

/-- The dimension numbers "columns against columns": contract axis 0 with axis 0, keep axis 1 of each factor, no
    batch. -/
abbrev dims (wf : DotDims.WF (⟨2, ![K, M]⟩ : Shape) (⟨2, ![K, N]⟩ : Shape) (⟨2, ![M, N]⟩ : Shape) [0] [0] [1] [1] [] []) :
    DotDims (⟨2, ![K, M]⟩ : Shape) (⟨2, ![K, N]⟩ : Shape) (⟨2, ![M, N]⟩ : Shape) where
  lhsContracting := [0]
  rhsContracting := [0]
  lhsNonContracting := [1]
  rhsNonContracting := [1]
  lhsBatch := []
  rhsBatch := []
  wf := wf

variable (wf : DotDims.WF (⟨2, ![K, M]⟩ : Shape) (⟨2, ![K, N]⟩ : Shape) (⟨2, ![M, N]⟩ : Shape) [0] [0] [1] [1] [] [])

/-- The left index keeps the result's row coordinate on its column axis. -/
theorem lhsIdx_col (j : (⟨2, ![M, N]⟩ : Shape).Idx) (k : (dims wf).contr.Idx) :
    ((dims wf).lhsIdx j k 1).val = (j 0).val := by
  unfold DotDims.lhsIdx
  rw [dif_neg (show ¬(1 : Fin (⟨2, ![K, M]⟩ : Shape).rank) ∈ (dims wf).lhsBatch from List.not_mem_nil),
    dif_pos (show (1 : Fin (⟨2, ![K, M]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(e, p)`. -/
theorem lhsIdx_eq (p : Fin M) (q : Fin N) (e : Fin K) :
    (dims wf).lhsIdx (ix2 p q) ((contrEquiv1 (dims wf) K rfl rfl).symm e) = ix2 e p := by
  have he := contrEquiv1_symm_val (dims wf) K rfl rfl e
  funext a
  apply Fin.ext
  match a with
  | ⟨0, _⟩ => exact ((dims wf).lhsIdx_val_of_single rfl _ _).trans he
  | ⟨1, _⟩ => exact lhsIdx_col wf _ _

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the host's product: column `p` of `lhs` against column `q` of `rhs`. -/
theorem dotGeneral_apply {φ₁ φ₂ : FTy} (prec : Option ContractPrecision) (sched : HostSchedule)
    (lhs : FVec Ideal (⟨2, ![K, M]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 e p) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotTN

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.KernelTerm.lean ====
/-
  The kernel's result as one term of the three arrays it depends on, read at an index.

  Put together, the host lines and the region compute, from x : [8, 4096, 512] and Wk, memory : [128, 512],

      w            = the host's contraction of Wk with memory over the rows, format-changed          [512, 512]
      rows         = x viewed as its 32768 rows                                                      [32768, 512]
      flat (r, e)  = sum over d of  rows (r, d) * w (d, e)                                           [32768, 512]
      result       = flat viewed back as [8, 4096, 512].

  Entry (b, n, e) of the result is therefore

      sum over d of  x (b, n, d) * (sum over k of  Wk (k, d) * memory (k, e)).
-/
import proofs.«132538_j65506841198866_2_alg».proof.Proof.Gen.KernelIdeal
import proofs.«132538_j65506841198866_2_alg».proof.Proof.LibDotTN
import proofs.«132538_j65506841198866_2_alg».proof.Proof.LibGroupsToRows
import proofs.«132538_j65506841198866_2_alg».proof.Proof.LibRank3Layout
import Idealize.ShloMosaic.PureOps.Ideal
import Idealize.ShloMosaic.Lib.Pipeline.Value
import Idealize.ShloMosaic.Lib.ValueIdx

noncomputable section

namespace Cert.KernelIdeal.KernelTerm

open Idealize.ShloMosaic Idealize.ShloMosaic.ValueIdx Cert.KernelIdeal Cert.KernelIdeal.Gen

/-- The product of a 32768 x 512 matrix of rows with a 512 x 512 weight, entry by entry: what the region's output array
    holds once every block is written. -/
def flat (X : S32768x512.Idx → EReal) (W : S512x512.Idx → EReal) : S32768x512.Idx → EReal :=
  fun i => ∑ d : Fin 512, X (ix2 (i 0) d) * W (ix2 d (i 1))

/-- The weight the host forms before the region. -/
def weight (wk mem : S128x512.Idx → EReal) : S512x512.Idx → EReal :=
  truncf (F := Ideal) .bf16 (Host.dotGeneral (F := Ideal) (φ₁ := .f32) (φ₂ := .f32)
    dot_S128x512_S128x512_S512x512_0_0_1_1_n_n (some .fp32) wk mem) bitsLt_bf16_f32

/-- The input viewed as the matrix of its rows. -/
def rows (x : S8x4096x512.Idx → EReal) : S32768x512.Idx → EReal :=
  shapeCast S32768x512 x shapeCasts_S8x4096x512_S32768x512

/-- The whole program's result as a term of its three arrays. -/
def result (x : S8x4096x512.Idx → EReal) (wk mem : S128x512.Idx → EReal) : S8x4096x512.Idx → EReal :=
  shapeCast S8x4096x512 (flat (rows x) (weight wk mem)) shapeCasts_S32768x512_S8x4096x512

/-- Entry (d, e) of the weight: column d of `Wk` against column e of `memory`. -/
theorem weight_apply (wk mem : S128x512.Idx → EReal) (d e : Fin 512) :
    weight wk mem (ix2 d e) = ∑ k : Fin 128, wk (ix2 k d) * mem (ix2 k e) :=
  Cert.LibDotTN.dotGeneral_apply (φ₁ := .f32) (φ₂ := .f32) dot_S128x512_S128x512_S512x512_0_0_1_1_n_n.wf
    (some .fp32) .single wk mem d e

/-- Row b * 4096 + n, column d of the flattened input is entry (b, n, d) of `x`. -/
theorem rows_apply (x : S8x4096x512.Idx → EReal) (b : Fin 8) (n : Fin 4096) (d : Fin 512)
    (h : b.val * 4096 + n.val < 32768) :
    rows x (ix2 ⟨b.val * 4096 + n.val, h⟩ d) = x (ix3 b n d) :=
  Cert.Layout.shapeCast_groups_rows_apply x shapeCasts_S8x4096x512_S32768x512 b n d h

/-- Entry (b, n, e) of the result. -/
theorem result_apply (x : S8x4096x512.Idx → EReal) (wk mem : S128x512.Idx → EReal) (b : Fin 8) (n : Fin 4096) (e : Fin 512) :
    result x wk mem (ix3 b n e) = ∑ d : Fin 512, x (ix3 b n d) * ∑ k : Fin 128, wk (ix2 k d) * mem (ix2 k e) := by
  have h : b.val * 4096 + n.val < 32768 := by have := b.isLt; have := n.isLt; omega
  unfold result
  rw [Cert.LibRank3.shapeCast_rows_apply _ shapeCasts_S32768x512_S8x4096x512 b n e h]
  show ∑ d : Fin 512, rows x (ix2 ⟨b.val * 4096 + n.val, h⟩ d) * weight wk mem (ix2 d e) = _
  refine Finset.sum_congr rfl fun d _ => ?_
  rw [rows_apply x b n d h, weight_apply]

end Cert.KernelIdeal.KernelTerm

end
-- ==== Proof.Blocks.lean ====
/-
  From the blocks the grid points write back to the whole output array of the region.

  The grid has 8 points. At point t the body reads rows 4096 t .. 4096 t + 4095 of the flattened input (window 0's
  block t on the row axis) and the whole weight (window 1, always block (0, 0)), and writes rows 4096 t .. 4096 t + 4095
  of the output (window 2's block t). Entry (p, q) of what it writes is the sum over d of  block (p, d) * weight (d, q),
  which is entry (4096 t + p, q) of ONE function of the two arrays: `flat rows weight`. Every row r of the output lies
  in the block of point r / 4096, so after the run the output array is that function.
-/
import proofs.«132538_j65506841198866_2_alg».proof.Proof.Gen.KernelIdeal.Frame
import proofs.«132538_j65506841198866_2_alg».proof.Proof.BodyValue
import proofs.«132538_j65506841198866_2_alg».proof.Proof.KernelTerm
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.KernelTerm

variable (m : (ℓ : Loc nD τ sig) → Buf (Elt Ideal) ℓ)

theorem zero_offsets : (![0, 0] : Fin 2 → Nat) = fun _ => 0 := funext fun a => by fin_cases a <;> rfl

/-- What the body stores at entry (p, q) is entry `i` of `flat X W`, whenever row p of the loaded input block is row
    `i 0` of `X` and column q of the loaded weight is column `i 1` of `W`. -/
theorem stored_eq_flat (X : S32768x512.Idx → EReal) (W : S512x512.Idx → EReal) (x0 : Vec Ideal S4096x512 .f32)
    (x1 : Vec Ideal S512x512 .bf16) (i : S32768x512.Idx) (p : Fin 4096) (q : Fin 512)
    (h0 : ∀ d : Fin 512, x0 (ix2 p d) = X (ix2 (i 0) d)) (h1 : ∀ d : Fin 512, x1 (ix2 d q) = W (ix2 d (i 1))) :
    k0_pay1 (F := Ideal) x0 x1 (ix2 p q) = flat X W i := by
  rw [Cert.KernelIdeal.BodyValue.pay_apply]
  unfold flat
  exact Finset.sum_congr rfl fun d _ => by rw [h0 d, h1 d]

/-- The printed index maps over the grid: at point t the input's and the output's blocks are block t on the row axis
    and block 0 on the columns; the weight's block is always (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `flat` of the two arrays the region reads. -/
theorem flushed_eq (c : Dev nD) (t : Fin cfg0.N) :
    (dats m 0 c).flushed 2 t
      = ((cfg0.win 2).blk t).view.read (Elt Ideal) (flat (V m c main_v2) (V m c main_v1)) := by
  show (cfg0.win 2).cut (grid0.coords t) ((dats m 0 c).after 2 t) = _
  rw [after0_2]
  unfold out0_2
  rw [View.canon_unit_zero zero_offsets]
  simp only [View.ld_unit_zero (S := S4096x512) zero_offsets, View.ld_unit_zero (S := S512x512) zero_offsets]
  obtain ⟨e0, e1, e2, e3, e4, e5⟩ := idx_facts t
  funext j
  obtain ⟨p, q, rfl⟩ : ∃ (p : Fin 4096) (q : Fin 512), j = ix2 p q := ⟨j 0, j 1, eq_ix2 j⟩
  show k0_pay1 (F := Ideal) (iblk m c 0 t) (iblk m c 1 t) (ix2 p q)
      = flat (V m c main_v2) (V m c main_v1) (((cfg0.win 2).blk t).view.emb (ix2 p q))
  refine stored_eq_flat (V m c main_v2) (V m c main_v1) (iblk m c 0 t) (iblk m c 1 t) _ p q ?_ ?_
  · intro d
    show V m c main_v2 (((cfg0.win 0).blk t).view.emb (ix2 p d)) = V m c main_v2 _
    refine congrArg (V m c main_v2) (funext fun a => Fin.ext ?_)
    match a with
    | ⟨0, _⟩ =>
      show win0_0.index t (0 : Fin 2) * 4096 + 1 * p.val = win0_2.index t (0 : Fin 2) * 4096 + 1 * p.val
      omega
    | ⟨1, _⟩ =>
      show win0_0.index t (1 : Fin 2) * 512 + 1 * d.val = d.val
      omega
  · intro d
    show V m c main_v1 (((cfg0.win 1).blk t).view.emb (ix2 d q)) = V m c main_v1 _
    refine congrArg (V m c main_v1) (funext fun a => Fin.ext ?_)
    match a with
    | ⟨0, _⟩ =>
      show win0_1.index t (0 : Fin 2) * 512 + 1 * d.val = d.val
      omega
    | ⟨1, _⟩ =>
      show win0_1.index t (1 : Fin 2) * 512 + 1 * q.val = win0_2.index t (1 : Fin 2) * 512 + 1 * q.val
      omega

/-- An index of the output array is in point `t`'s block iff each coordinate is in the block's range on its axis. -/
theorem mem_blk (t : Fin cfg0.N) (i : S32768x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v3).slice (win0_2.rect t)).set ↔ _
  rw [View.set_slice_whole, Rect.mem_set_unit]
  exact Iff.rfl

/-- Every index of the output array is in the block of a point that writes back: row r is in block r / 4096. -/
theorem cover (i : S32768x512.Idx) :
    ∃ t : Fin cfg0.N, (cfg0.win 2).flush t = true ∧ i ∈ ((cfg0.win 2).blk t).view.set := by
  have hi0 : (i 0).val < 32768 := (i 0).isLt
  have hi1 : (i 1).val < 512 := (i 1).isLt
  have hN : (i 0).val / 4096 < grid0.N := by rw [N_0]; omega
  let t : Fin cfg0.N := ⟨(i 0).val / 4096, hN⟩
  obtain ⟨-, -, -, -, e4, e5⟩ := idx_facts t
  have ht : t.val = (i 0).val / 4096 := rfl
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 512 ≤ (i 1).val ∧ (i 1).val < win0_2.index t (1 : Fin 2) * 512 + 512
    omega

/-- The output array after the run: `flat` of the two arrays the region reads. -/
theorem final (c : Dev nD) :
    (dats m 0 c).arrAt 2 cfg0.N = flat (V m c main_v2) (V m c main_v1) :=
  (dats m 0 c).arrAt_eq_of_cover 2 _ (fun t _ => flushed_eq m c t) cover

end Cert.KernelIdeal.Blocks

end
-- ==== Proof.KernelRun.lean ====
/-
  The kernel's run, with its result named.

  After the region the host views the region's output array, 32768 rows of 512 numbers, back as [8, 4096, 512]: that
  is the program's result. The region's output array is `flat` of the two arrays the region reads, those are the row view
  of x and the host's weight, so the result is the one term `KernelTerm.result` of the argument arrays x, Wk and
  memory as launched; the arguments end unchanged.
-/
import proofs.«132538_j65506841198866_2_alg».proof.Proof.Gen.KernelIdeal.Frame
import proofs.«132538_j65506841198866_2_alg».proof.Proof.HostPrefix
import proofs.«132538_j65506841198866_2_alg».proof.Proof.Blocks
import proofs.«132538_j65506841198866_2_alg».proof.Proof.KernelTerm
import Idealize.ShloMosaic.Lib.StableHlo.Run

set_option maxRecDepth 16384

noncomputable section

namespace Cert.KernelIdeal.KernelRun

open Idealize.ShloMosaic Idealize.ShloMosaic.TcCoe Idealize.SL.Sem
open Cert.KernelIdeal Cert.KernelIdeal.Gen Cert.KernelIdeal.KernelTerm

variable (m : (ℓ : Loc nD τ sig) → Buf (Elt Ideal) ℓ) (ρ : Dev nD → PrngReg)

/-- The host line after the region: the result buffer holds the region's output array viewed as [8, 4096, 512]. -/
theorem tail_eq (c : Dev nD) :
    (Pipeline.afterTail₀ cfgs (dats m) 0 (V0 m) [hostOps1] c main_v4 : S8x4096x512.Idx → EReal)
      = shapeCast S8x4096x512 ((dats m 0 c).arrAt 2 cfg0.N) shapeCasts_S32768x512_S8x4096x512 := by
  unfold Pipeline.afterTail₀
  show StableHlo.after hostOps1 _ (Proc.devRef .tc main_v4) = _
  after_results
  rw [Pipeline.withArrays_arr spec0 launch0.win.arr_inj c _ _ 2]
  rfl

/-- The result buffer after the run, as a term of the argument arrays as launched. -/
theorem result_eq (c : Dev nD) :
    (Pipeline.afterTail₀ cfgs (dats m) 0 (V0 m) [hostOps1] c main_v4 : S8x4096x512.Idx → EReal)
      = result (m ((c : Thread nD τ).loc main_arg0)) (m ((c : Thread nD τ).loc main_arg2)) (m ((c : Thread nD τ).loc main_arg4)) := by
  rw [tail_eq, Cert.KernelIdeal.Blocks.final, Cert.KernelIdeal.HostPrefix.rows_eq, Cert.KernelIdeal.HostPrefix.weight_eq]
  rfl

/-- Every weakly fair execution of the kernel's program terminates with the result buffer at `result` of the launched
    x, Wk and memory, and the six argument arrays unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.RealSums.lean ====
/-
  Sums of products of real numbers, formed inside the extended reals.

  On the extended reals a product does not distribute over a sum in general (an infinite factor against terms of
  opposite signs), so a matrix product cannot be re-associated there. It can when every entry is a real number:
  all the sums and products then stay real, and the identity is the one of real arithmetic. This file has the two
  facts that are used: a finite sum of reals formed in the extended reals is the real sum, and for real entries

      sum over d of  x d * (sum over k of  w k d * y k)   =   sum over k of  (sum over d of  x d * w k d) * y k ,

  which is entry by entry the associativity  x (wT y) = (x wT) y  of a row against two matrices. A value whose absolute
  value is below the top element is a real number.
-/
import Mathlib.Data.EReal.Operations
import Mathlib.Algebra.BigOperators.Ring.Finset
import Mathlib.Algebra.BigOperators.Group.Finset.Sigma

namespace Cert.RealSums

/-- A finite sum of real numbers, formed in the extended reals, is the real sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The identity over the reals: both sides are the double sum of `x d * w k d * y k`. -/
theorem assoc_real {D K : Type*} [Fintype D] [Fintype K] (x : D → ℝ) (w : K → D → ℝ) (y : K → ℝ) :
    ∑ d, x d * ∑ k, w k d * y k = ∑ k, (∑ d, x d * w k d) * y k := by
  calc ∑ d, x d * ∑ k, w k d * y k
      = ∑ d, ∑ k, x d * (w k d * y k) := by simp only [Finset.mul_sum]
    _ = ∑ k, ∑ d, x d * (w k d * y k) := Finset.sum_comm
    _ = ∑ k, (∑ d, x d * w k d) * y k := by simp only [Finset.sum_mul, mul_assoc]

/-- The same inside the extended reals, for entries that are embedded reals. -/
theorem assoc_coe {D K : Type*} [Fintype D] [Fintype K] (x : D → ℝ) (w : K → D → ℝ) (y : K → ℝ) :
    ∑ d, ((x d : ℝ) : EReal) * ∑ k, ((w k d : ℝ) : EReal) * ((y k : ℝ) : EReal)
      = ∑ k, (∑ d, ((x d : ℝ) : EReal) * ((w k d : ℝ) : EReal)) * ((y k : ℝ) : EReal) := by
  simp only [← EReal.coe_mul, sum_coe]
  exact congrArg _ (assoc_real x w y)

/-- And for extended-real entries each of which is known to be a real number. -/
theorem assoc_of_real {D K : Type*} [Fintype D] [Fintype K] (x : D → EReal) (w : K → D → EReal) (y : K → EReal)
    (hx : ∀ d, ∃ r : ℝ, x d = (r : EReal)) (hw : ∀ k d, ∃ r : ℝ, w k d = (r : EReal))
    (hy : ∀ k, ∃ r : ℝ, y k = (r : EReal)) :
    ∑ d, x d * ∑ k, w k d * y k = ∑ k, (∑ d, x d * w k d) * y k := by
  choose xr hxr using hx
  choose wr hwr using hw
  choose yr hyr using hy
  simp only [hxr, hwr, hyr]
  exact assoc_coe xr wr yr

/-- An extended real whose absolute value `max a (-a)` is below the top element is a real number. -/
theorem exists_real_of_abs_lt_top (a : EReal) (h : max a (-a) < ⊤) : ∃ r : ℝ, a = (r : EReal) := by
  induction a using EReal.rec with
  | bot => simp at h
  | top => simp at h
  | coe r => exact ⟨r, rfl⟩

end Cert.RealSums
-- ==== Proof.Finite.lean ====
/-
  The precondition says every float input is finite; at the exact extended reals that means every entry of every
  argument array is a real number.

  The printed predicate is, for each argument a, the conjunction over all entries of the test  |a i| < +inf  (an
  elementwise comparison reduced by `and` from `true`), and then the conjunction of the six results. If the whole
  is true each of the six is, so each entry's test is; the pattern 0x7F800000 denotes the top element; and an extended
  real whose absolute value is below the top element is a real number. Stated here for the three arrays the result
  depends on.
-/
import proofs.«132538_j65506841198866_2_alg».proof.Proof.Gen.Pre_finite_inputs
import proofs.«132538_j65506841198866_2_alg».proof.Proof.RealSums
import Idealize.ShloMosaic.Lib.ReduceAll
import Idealize.ShloMosaic.Lib.Pipeline.Value
import Idealize.ShloMosaic.Lib.ValueIdx
import Idealize.ShloMosaic.PureOps.Ideal

noncomputable section

namespace Cert.Pre_finite_inputs.Finite

open Idealize.ShloMosaic Cert.Pre_finite_inputs Cert.Pre_finite_inputs.Gen

/-- A rank-0 array has one index. -/
instance : Subsingleton S_.Idx := ⟨fun _ _ => funext fun d => d.elim0⟩

/-- The pattern of +inf denotes the top element. -/
theorem inf_eq_top : Ideal.ofBits .f32 0x7F800000#32 = ⊤ := by simp [Ideal.ofBits, Ideal.ieee]

/-- One entry's test `|a| < +inf` came out true: the entry is a real number. -/
theorem real_of_test (a : EReal) (h : Ideal.cmp .olt (max a (-a)) (Ideal.ofBits .f32 0x7F800000#32) = 1#1) :
    ∃ r : ℝ, a = (r : EReal) := by
  rw [inf_eq_top] at h
  refine Cert.RealSums.exists_real_of_abs_lt_top a ?_
  by_contra hn
  unfold Ideal.cmp at h
  simp [hn] at h

/-- `jnp.all(|a| < +inf)` came out true for an array of any shape: every entry is a real number. -/
theorem all_real {s : Shape} {axes : List (Fin s.rank)} (a : FVec Ideal s .f32)
    (bc : S_.BroadcastsInDim s (![] : Fin 0 → Fin s.rank)) (rd : s.ReducesTo axes S_) (hS : 0 < S_.numel)
    (h : Host.reduce IntOp.andi (cmpf .olt (Host.absf a) (broadcastInDim s ![] bc (constant (F := Ideal) S_ .f32 0x7F800000#32)))
        (constantI S_ 1 1#1) rd hS ValueIdx.ix0 = 1#1)
    (i : s.Idx) : ∃ r : ℝ, a i = (r : EReal) := by
  have e := Host.reduce_andi_all _ _ rd hS _ h i
  have hb : broadcastInDim s ![] bc (constant (F := Ideal) S_ .f32 0x7F800000#32) i = Ideal.ofBits .f32 0x7F800000#32 :=
    broadcastInDim_apply _ bc _ i ValueIdx.ix0 (fun d => d.elim0)
  have e' : Ideal.cmp .olt (max (a i) (-(a i)))
      (broadcastInDim s ![] bc (constant (F := Ideal) S_ .f32 0x7F800000#32) i) = 1#1 := e
  rw [hb] at e'
  exact real_of_test (a i) e'

/-- Under the precondition the first, third and fifth argument arrays hold real numbers only. -/
theorem reals_of_pre (a0 : FVec Ideal S8x4096x512 .f32) (a1 a2 : FVec Ideal S128x512 .f32) (a3 : FVec Ideal S512x512 .f32)
    (a4 a5 : FVec Ideal S128x512 .f32) (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a4 i = (r : EReal)) := by
  have h0 := congrFun h ValueIdx.ix0
  dsimp only [fn, fn_part1] at h0
  simp only [andi, IntOp.andi_eq_one] at h0
  obtain ⟨⟨⟨⟨⟨h3, -⟩, h12⟩, -⟩, h22⟩, -⟩ := h0
  exact ⟨all_real a0 _ _ _ h3, all_real a2 _ _ _ h12, all_real a4 _ _ _ h22⟩

end Cert.Pre_finite_inputs.Finite

end
-- ==== Proof.Bridge.lean ====
/-
  The kernel's result and the reference's are one function of x, Wk and memory when their entries are real numbers.

  Entry (b, n, e) of the reference's result is

      sum over k of  (sum over d of  x (b, n, d) * Wk (k, d)) * memory (k, e)       — (x WkT) memory,

  and of the kernel's

      sum over d of  x (b, n, d) * (sum over k of  Wk (k, d) * memory (k, e))       — x (WkT memory).

  Both are the double sum of  x (b, n, d) * Wk (k, d) * memory (k, e); passing from one to the other distributes a
  factor over a sum, which on the extended reals needs the entries to be real (`RealSums.assoc_of_real`).
-/
import proofs.«132538_j65506841198866_2_alg».proof.Proof.Gen.ReferenceIdeal.Read
import proofs.«132538_j65506841198866_2_alg».proof.Proof.KernelTerm
import proofs.«132538_j65506841198866_2_alg».proof.Proof.RealSums
import Idealize.ShloMosaic.Lib.ValueIdx

noncomputable section

namespace Cert.Bridge

open Idealize.ShloMosaic Idealize.ShloMosaic.ValueIdx
open Cert.ReferenceIdeal.Read

/-- Entry (b, n, e) of the reference's result: the rows of `x Wkᵀ` against the columns of `memory`. -/
theorem ref_apply (x : Cert.KernelIdeal.S8x4096x512.Idx → EReal) (wk mem : Cert.KernelIdeal.S128x512.Idx → EReal)
    (b : Fin 8) (n : Fin 4096) (e : Fin 512) :
    val_main_v3 (F := Ideal) x wk mem (ix3 b n e)
      = ∑ k : Fin 128, (∑ d : Fin 512, x (ix3 b n d) * wk (ix2 k d)) * mem (ix2 k e) := by
  rw [val_main_v3_apply]
  refine Finset.sum_congr rfl fun k _ => ?_
  rw [val_main_v1_apply]
  have er : ridx_main_v3 (ix3 b n e) k = ix2 k e :=
    funext fun a => Fin.ext (by match a with | ⟨0, _⟩ => rfl | ⟨1, _⟩ => rfl)
  have el : ∀ d : Fin 512, lidx_main_v1 (lidx_main_v3 (ix3 b n e) k) d = ix3 b n d := fun d =>
    funext fun a => Fin.ext (by match a with | ⟨0, _⟩ => rfl | ⟨1, _⟩ => rfl | ⟨2, _⟩ => rfl)
  have ew : ∀ d : Fin 512, ridx_main_v1 (lidx_main_v3 (ix3 b n e) k) d = ix2 k d := fun d =>
    funext fun a => Fin.ext (by match a with | ⟨0, _⟩ => rfl | ⟨1, _⟩ => rfl)
  rw [er]
  exact congrArg (· * mem (ix2 k e)) (Finset.sum_congr rfl fun d _ => by rw [el d, ew d])

/-- For real entries the kernel's term is the reference's stage. -/
theorem result_eq_ref (x : Cert.KernelIdeal.S8x4096x512.Idx → EReal) (wk mem : Cert.KernelIdeal.S128x512.Idx → EReal)
    (hx : ∀ i, ∃ r : ℝ, x i = (r : EReal)) (hwk : ∀ i, ∃ r : ℝ, wk i = (r : EReal))
    (hmem : ∀ i, ∃ r : ℝ, mem i = (r : EReal)) :
    Cert.KernelIdeal.KernelTerm.result x wk mem = val_main_v3 (F := Ideal) x wk mem := by
  funext i
  obtain ⟨b, n, e, rfl⟩ : ∃ (b : Fin 8) (n : Fin 4096) (e : Fin 512), i = ix3 b n e := ⟨i 0, i 1, i 2, eq_ix3 i⟩
  rw [Cert.KernelIdeal.KernelTerm.result_apply, ref_apply]
  exact Cert.RealSums.assoc_of_real (fun d : Fin 512 => x (ix3 b n d)) (fun (k : Fin 128) (d : Fin 512) => wk (ix2 k d))
    (fun k : Fin 128 => mem (ix2 k e)) (fun d => hx _) (fun k d => hwk _) (fun k => hmem _)

end Cert.Bridge

end
-- ==== Proof.lean ====
/-
  The kernel computes  retrieved = x (Wkᵀ memory)  and the reference  retrieved = (x Wkᵀ) memory, for
  x : [8, 4096, 512] and Wk, memory : [128, 512]: the same result [8, 4096, 512] by associativity of the matrix product.

  The kernel's side. The host contracts Wk with memory over their 128 rows into the 512 x 512 weight, changes its
  float format (the identity at the exact values), and views x as 32768 rows. The region's 8 grid points each multiply
  4096 of those rows by the whole weight (one matmul into a zero accumulator) and write the 4096 result rows back; the
  blocks tile the output array, which the host then views as [8, 4096, 512]. So entry (b, n, e) of the kernel's result is
  the sum over d of  x (b, n, d) * (sum over k of Wk (k, d) * memory (k, e)).

  The reference's side. Two host contractions: first x against Wk over the 512 lanes, then the result against memory
  over the 128 slots. Entry (b, n, e) is the sum over k of  (sum over d of x (b, n, d) * Wk (k, d)) * memory (k, e). (The
  reference goes on to form a gradient and two updated buffers; none of them is its result.)

  The two double sums agree when the entries are real numbers, and the precondition says they are: every float input
  is finite. On the extended reals the step is not free — distributing a factor over a sum fails at infinities — so the
  precondition is used.

  The three frames are the generated ones (the reference's is its run with the result dropped); the idealization rewrote
  nothing, so there is nothing to preserve.
-/
import proofs.«132538_j65506841198866_2_alg».proof.Defs
import proofs.«132538_j65506841198866_2_alg».proof.Proof.Gen.Kernel
import proofs.«132538_j65506841198866_2_alg».proof.Proof.Gen.Kernel.Skeleton
import proofs.«132538_j65506841198866_2_alg».proof.Proof.Gen.Kernel.Launch
import proofs.«132538_j65506841198866_2_alg».proof.Proof.Gen.Kernel.Points
import proofs.«132538_j65506841198866_2_alg».proof.Proof.Gen.Kernel.Frame
import proofs.«132538_j65506841198866_2_alg».proof.Proof.Gen.KernelIdeal
import proofs.«132538_j65506841198866_2_alg».proof.Proof.Gen.KernelIdeal.Skeleton
import proofs.«132538_j65506841198866_2_alg».proof.Proof.Gen.KernelIdeal.Launch
import proofs.«132538_j65506841198866_2_alg».proof.Proof.Gen.KernelIdeal.Points
import proofs.«132538_j65506841198866_2_alg».proof.Proof.Gen.KernelIdeal.Frame
import proofs.«132538_j65506841198866_2_alg».proof.Proof.Gen.ReferenceIdeal
import proofs.«132538_j65506841198866_2_alg».proof.Proof.Gen.ReferenceIdeal.Run
import proofs.«132538_j65506841198866_2_alg».proof.Proof.Gen.ReferenceIdeal.Read
import proofs.«132538_j65506841198866_2_alg».proof.Proof.Gen.Pre_finite_inputs
import proofs.«132538_j65506841198866_2_alg».proof.Proof.KernelRun
import proofs.«132538_j65506841198866_2_alg».proof.Proof.Finite
import proofs.«132538_j65506841198866_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result: the kernel's run ends at `x (Wkᵀ memory)`, the reference's at
    `(x Wkᵀ) memory` of arguments that agree, and for the real entries the precondition grants the two are equal. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hwk, hmem⟩ := Cert.Pre_finite_inputs.Finite.reals_of_pre _ _ _ _ _ _ (hpre c)
  rw [Cert.ReferenceIdeal.Read.val_main_v3_eq, (hagree c).1, (hagree c).2.2.1, (hagree c).2.2.2.2.1]
  exact (Cert.Bridge.result_eq_ref _ _ _ hx hwk hmem).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
